-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x21 : Shape := ⟨2, ![2097152, 21]⟩
abbrev S2097152 : Shape := ⟨1, ![2097152]⟩
abbrev S4096 : Shape := ⟨1, ![4096]⟩
abbrev S_ : Shape := ⟨0, ![]⟩

class Facts : Prop where
  bcast_S_S2097152x21 : S_.BroadcastsInDim S2097152x21 (![] : Fin 0 → Fin S2097152x21.rank)
  reducesTo_S2097152x21_S_d0_1 : S2097152x21.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2097152x21 .f32) (main_arg1 : FVec F S2097152 .f32) (main_arg2 : FVec F S4096 .f32) (main_arg3 : IVec S2097152 32) (main_arg4 : IVec S2097152 32) : IVec S_ 1 :=
  let main_v0 : FVec F S2097152x21 .f32 := Host.absf main_arg0
  let main_cst : FVec F S_ .f32 := constant S_ .f32 0x7F800000#32
  let main_v1 : FVec F S2097152x21 .f32 := broadcastInDim S2097152x21 ![] bcast_S_S2097152x21 main_cst
  let main_v2 : IVec S2097152x21 1 := cmpf .olt main_v0 main_v1
  let main_c : IVec S_ 1 := constantI S_ 1 1#1
  let main_v3 : IVec S_ 1 := (fun x v => Host.reduce IntOp.andi x v reducesTo_S2097152x21_S_d0_1 h_S_) main_v2 main_c
  let main_v4 : FVec F S2097152 .f32 := Host.absf main_arg1
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2097152x21 : Shape := ⟨2, ![2097152, 21]⟩
abbrev S2097152 : Shape := ⟨1, ![2097152]⟩
abbrev S4096 : Shape := ⟨1, ![4096]⟩
abbrev S2097152x1 : Shape := ⟨2, ![2097152, 1]⟩
abbrev S_ : Shape := ⟨0, ![]⟩
abbrev S1x1 : Shape := ⟨2, ![1, 1]⟩
abbrev S131072 : Shape := ⟨1, ![131072]⟩
abbrev S1x131072 : Shape := ⟨2, ![1, 131072]⟩
abbrev S1 : Shape := ⟨1, ![1]⟩

abbrev nBuf : Space → Nat
  | .hbm => 23
  | .vmem => 10
  | .smem => 0
  | _ => 0

abbrev bufTy : (tb : Table) → Fin (tcTables nBuf tb) → BufTy
  | .hbm, ⟨0, _⟩ => ⟨S2097152x21, .f32⟩
  | .hbm, ⟨1, _⟩ => ⟨S2097152, .f32⟩
  | .hbm, ⟨2, _⟩ => ⟨S4096, .f32⟩
  | .hbm, ⟨3, _⟩ => ⟨S2097152, .i32⟩
  | .hbm, ⟨4, _⟩ => ⟨S2097152, .i32⟩
  | .hbm, ⟨5, _⟩ => ⟨S2097152x1, .f32⟩
  | .hbm, ⟨6, _⟩ => ⟨S2097152, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152, .f32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S131072, .f32⟩
  | .local _ .vmem, ⟨1, _⟩ => ⟨S131072, .f32⟩
  | .local _ .vmem, ⟨2, _⟩ => ⟨S131072, .i32⟩
  | .local _ .vmem, ⟨3, _⟩ => ⟨S131072, .i32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S1x1, .f32⟩
  | .local _ .vmem, ⟨9, _⟩ => ⟨S1x1, .f32⟩
  | _, _ => ⟨S2097152x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2097152x21_S2097152x1_0_0 : S2097152x21.Slices ![0, 0] S2097152x1
  shapeCasts_S2097152x1_S2097152 : S2097152x1.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  inb_S1x1_S1x1_0_0 : ∀ a, (![0, 0] : Fin 2 → Nat) a + S1x1.size a ≤ S1x1.size a
  h_S1x1 : 0 < S1x1.numel
  inb_S131072_S131072_0 : ∀ a, (![0] : Fin 1 → Nat) a + S131072.size a ≤ S131072.size a
  h_S131072 : 0 < S131072.numel
  shapeCasts_S131072_S131072 : S131072.ShapeCasts S131072
  shapeCasts_S1x1_S1x1 : S1x1.ShapeCasts S1x1
  shapeCasts_S131072_S1x131072 : S131072.ShapeCasts S1x131072
  reduces_S1x131072_S1 : S1x131072.Reduces [1] S1
  shapeCasts_S1_S1x1 : S1.ShapeCasts S1x1
  inpos_S1x1_p0_0 : ∀ a, (![0, 0] : Fin 2 → Nat) a < S1x1.size a
  natLt_1_32 : 1 < 32
  shapeCasts_S1x1_S_ : S1x1.ShapeCasts S_
  gather_S4096_S2097152x1_S2097152_n_0_n_n_0_1_1_wf : GatherDims.WF S4096 S2097152x1 S2097152 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072.size a ≤ S2097152.size a
  hwx0_0 : ∀ i : grid0.Coords, EltTy.bits .f32 = 32 ∨ (Rect.block (s := S2097152) S131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072.size a ≤ S2097152.size a
  hwx0_1 : ∀ i : grid0.Coords, EltTy.bits .i32 = 32 ∨ (Rect.block (s := S2097152) S131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072.size a ≤ S2097152.size a
  hwx0_2 : ∀ i : grid0.Coords, EltTy.bits .f32 = 32 ∨ (Rect.block (s := S2097152) S131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S131072.size a ≤ S2097152.size a
  hwx0_3 : ∀ i : grid0.Coords, EltTy.bits .f32 = 32 ∨ (Rect.block (s := S2097152) S131072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S4096_S2097152x1_S2097152_n_0_n_n_0_1_1 : GatherDims S4096 S2097152x1 S2097152 where
  offsetDims := []
  collapsedSliceDims := [0]
  operandBatchingDims := []
  startIndicesBatchingDims := []
  startIndexMap := [0]
  indexVectorDim := 1
  sliceSizes := ![1]
  wf := gather_S4096_S2097152x1_S2097152_n_0_n_n_0_1_1_wf

abbrev win0_0 : Pipeline.Window sig grid0 :=
  Pipeline.Window.ofSpec (Memref.whole main_v1) S131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S131072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x21 : Shape := ⟨2, ![2097152, 21]⟩
abbrev S2097152 : Shape := ⟨1, ![2097152]⟩
abbrev S4096 : Shape := ⟨1, ![4096]⟩
abbrev S_ : Shape := ⟨0, ![]⟩
abbrev S2097152x1 : Shape := ⟨2, ![2097152, 1]⟩

abbrev nBuf : Space → Nat
  | .hbm => 42
  | .vmem => 0
  | .smem => 0
  | _ => 0

abbrev bufTy : (tb : Table) → Fin (tcTables nBuf tb) → BufTy
  | .hbm, ⟨0, _⟩ => ⟨S2097152x21, .f32⟩
  | .hbm, ⟨1, _⟩ => ⟨S2097152, .f32⟩
  | .hbm, ⟨2, _⟩ => ⟨S4096, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i1⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152, .f32⟩
  | .hbm, ⟨20, _⟩ => ⟨S2097152x1, .f32⟩
  | .hbm, ⟨21, _⟩ => ⟨S2097152, .f32⟩
  | .hbm, ⟨22, _⟩ => ⟨S2097152, .f32⟩
  | .hbm, ⟨23, _⟩ => ⟨S2097152, .f32⟩
  | .hbm, ⟨24, _⟩ => ⟨S_, .f32⟩
  | .hbm, ⟨25, _⟩ => ⟨S2097152, .f32⟩
  | .hbm, ⟨26, _⟩ => ⟨S2097152, .f32⟩
  | .hbm, ⟨27, _⟩ => ⟨S2097152, .f32⟩
  | .hbm, ⟨28, _⟩ => ⟨S2097152, .f32⟩
  | .hbm, ⟨29, _⟩ => ⟨S_, .f32⟩
  | .hbm, ⟨30, _⟩ => ⟨S_, .f32⟩
  | .hbm, ⟨31, _⟩ => ⟨S2097152, .f32⟩
  | .hbm, ⟨32, _⟩ => ⟨S2097152, .f32⟩
  | .hbm, ⟨33, _⟩ => ⟨S2097152, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S2097152x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2097152x21_S2097152x1_0_0 : S2097152x21.Slices ![0, 0] S2097152x1
  shapeCasts_S2097152x1_S2097152 : S2097152x1.ShapeCasts S2097152
  natLt_1_32 : 1 < 32
  reducesTo_S2097152_S_d0 : S2097152.ReducesTo [0] S_
  h_S_ : 0 < S_.numel
  gather_S4096_S2097152x1_S2097152_n_0_n_n_0_1_1_wf : GatherDims.WF S4096 S2097152x1 S2097152 [] [0] [] [0] [] 1 ![1]

variable [Facts₀]

def gather_S4096_S2097152x1_S2097152_n_0_n_n_0_1_1 : GatherDims S4096 S2097152x1 S2097152 where
  offsetDims := []
  collapsedSliceDims := [0]
  operandBatchingDims := []
  startIndicesBatchingDims := []
  startIndexMap := [0]
  indexVectorDim := 1
  sliceSizes := ![1]
  wf := gather_S4096_S2097152x1_S2097152_n_0_n_n_0_1_1_wf

class Facts : Prop extends Facts₀ where

variable [Facts]
-- ==== Proof.Pieces.lean ====
/-
  What one grid point leaves in the two accumulators, read off the body's stores.

  The body keeps two one-element accumulators. At the first grid point (case A) it stores zero in each, reads the zero
  back, and stores "what it read + this block's contribution"; at every later point (case B) it reads what the point
  before left and stores "that + this block's contribution". So after a point the sum accumulator holds the payload
  of its last store evaluated at the four input blocks and at the value it held before (zero in case A), and
  likewise the count accumulator.  Nothing here depends on how floats are read.
-/
import proofs.«180624_j70884140253232_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- A later point, the sum accumulator: the running value `xo4` plus this block's contribution. -/
theorem sum_later (c : Dev nD) (i : grid0.Coords) (a1 : Memref sig .tc .vmem S131072 .f32) (h1 : a1.IsWhole)
    (a2 : Memref sig .tc .vmem S131072 .i32) (h2 : a2.IsWhole) (a3 : Memref sig .tc .vmem S131072 .f32) (h3 : a3.IsWhole)
    (a4 : Memref sig .tc .vmem S131072 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S131072 .f32) (x1 : Vec F S131072 .i32) (x2 : Vec F S131072 .f32) (x3 : Vec F S131072 .f32)
    (xo4 xo5 : Vec F S1x1 .f32) :
    out0_B_4 c i a1 h1 a2 h2 a3 h3 a4 h4 a5 h5 a6 h6 hc x0 x1 x2 x3 xo4 xo5 = k0_pay5 x0 x1 x2 x3 xo4 := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  rw [View.canon_unit_zero zero2]
  simp only [View.readAt_eq_ld, h1.read_unread, h2.read_unread, h3.read_unread, h4.read_unread, h5.read_unread,
    View.ld_unit_zero (S := S131072) zero1, View.ld_unit_zero (S := S1x1) zero2]

/-- A later point, the count accumulator: the running value `xo5` plus this block's count. -/
theorem cnt_later (c : Dev nD) (i : grid0.Coords) (a1 : Memref sig .tc .vmem S131072 .f32) (h1 : a1.IsWhole)
    (a2 : Memref sig .tc .vmem S131072 .i32) (h2 : a2.IsWhole) (a3 : Memref sig .tc .vmem S131072 .f32) (h3 : a3.IsWhole)
    (a4 : Memref sig .tc .vmem S131072 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S131072 .f32) (x1 : Vec F S131072 .i32) (x2 : Vec F S131072 .f32) (x3 : Vec F S131072 .f32)
    (xo4 xo5 : Vec F S1x1 .f32) :
    out0_B_5 c i a1 h1 a2 h2 a3 h3 a4 h4 a5 h5 a6 h6 hc x0 x1 x2 x3 xo4 xo5 = k0_pay1 (k0_pay6 xo5) (k0_pay7 x1) := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  sl_unfold_words
  rw [View.canon_unit_zero zero2]
  simp only [View.readAt_eq_ld, h2.read_unread, h6.read_unread,
    View.ld_unit_zero (S := S131072) zero1, View.ld_unit_zero (S := S1x1) zero2]

/-- The first point, the sum accumulator: zero plus this block's contribution. -/
theorem sum_first (c : Dev nD) (i : grid0.Coords) (a1 : Memref sig .tc .vmem S131072 .f32) (h1 : a1.IsWhole)
    (a2 : Memref sig .tc .vmem S131072 .i32) (h2 : a2.IsWhole) (a3 : Memref sig .tc .vmem S131072 .f32) (h3 : a3.IsWhole)
    (a4 : Memref sig .tc .vmem S131072 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S131072 .f32) (x1 : Vec F S131072 .i32) (x2 : Vec F S131072 .f32) (x3 : Vec F S131072 .f32) :
    out0_A_4 c i a1 h1 a2 h2 a3 h3 a4 h4 a5 h5 a6 h6 hc x0 x1 x2 x3 = k0_pay5 x0 x1 x2 x3 (k0_pay2 (F := F)) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S1x1) zero2, View.readCov_unit_zero (S := S1x1) _ zero2]
  simp only [View.readAt_eq_ld, h1.read_unread, h2.read_unread, h3.read_unread, h4.read_unread,
    View.ld_unit_zero (S := S131072) zero1]

/-- The first point, the count accumulator: zero plus this block's count. -/
theorem cnt_first (c : Dev nD) (i : grid0.Coords) (a1 : Memref sig .tc .vmem S131072 .f32) (h1 : a1.IsWhole)
    (a2 : Memref sig .tc .vmem S131072 .i32) (h2 : a2.IsWhole) (a3 : Memref sig .tc .vmem S131072 .f32) (h3 : a3.IsWhole)
    (a4 : Memref sig .tc .vmem S131072 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S131072 .f32) (x1 : Vec F S131072 .i32) (x2 : Vec F S131072 .f32) (x3 : Vec F S131072 .f32) :
    out0_A_5 c i a1 h1 a2 h2 a3 h3 a4 h4 a5 h5 a6 h6 hc x0 x1 x2 x3
      = k0_pay1 (k0_pay6 (k0_pay3 (F := F))) (k0_pay7 x1) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1) zero2, View.readCov_unit_zero (S := S1x1) _ zero2]
  simp only [View.readAt_eq_ld, h2.read_unread, View.ld_unit_zero (S := S131072) zero1]

end Cert.KernelIdeal.Pieces

end
-- ==== Proof.Spec.lean ====
/-
  The mathematics of the clustered negative-log-likelihood loss, with no program in sight.

  One sample contributes  -w · log (max p ε)  where p is the background probability when the target is 0 and the
  cluster probability otherwise, and contributes 0 when the target is the ignore index -1; a sample is counted when
  its target is not -1. The loss is the sum of the contributions divided by max(count, 1).

  Two facts are proved here. (1) A sum over the 2097152 samples is the sum over 16 consecutive blocks of 131072
  samples of the blocks' sums: sample n is sample (n mod 131072) of block (n div 131072), a bijection, and addition
  in a commutative monoid may be regrouped freely (on the extended reals too: no finiteness is used). (2) Adding up
  32-bit words that are each 0 or 1 does not wrap while there are fewer than 2^31 of them, so the signed value of the
  32-bit total is the number of ones, which is also the sum of the words' own signed values as reals.
-/
import Idealize.ShloMosaic.PureOps.Ideal
import Idealize.ShloMosaic.PureOps.Ideal.Laws
import Idealize.ShloMosaic.PureOps.Reduce
import Idealize.ShloMosaic.Lib.ValueIdx

noncomputable section

namespace Cert.PclSpec

open Idealize.ShloMosaic Idealize.ShloMosaic.ValueIdx

/-! ## Blocks of samples -/

/-- Sample `j` of block `t`: sample `131072 t + j` of the whole. -/
def blk (t : Fin 16) (j : Fin 131072) : Fin 2097152 := ⟨t.val * 131072 + j.val, by have := t.isLt; have := j.isLt; omega⟩

/-- Every sample is sample `n mod 131072` of block `n div 131072`, and of no other. -/
def blkEquiv : Fin 16 × Fin 131072 ≃ Fin 2097152 where
  toFun x := blk x.1 x.2
  invFun n := (⟨n.val / 131072, by have := n.isLt; omega⟩, ⟨n.val % 131072, by omega⟩)
  left_inv x := by
    obtain ⟨t, j⟩ := x
    have := t.isLt; have := j.isLt
    refine Prod.ext (Fin.ext ?_) (Fin.ext ?_)
    · show (t.val * 131072 + j.val) / 131072 = t.val; omega
    · show (t.val * 131072 + j.val) % 131072 = j.val; omega
  right_inv n := by
    refine Fin.ext ?_
    show n.val / 131072 * 131072 + n.val % 131072 = n.val; omega

/-- A sum over all samples, block by block. -/
theorem sum_blk {M : Type*} [AddCommMonoid M] (f : Fin 2097152 → M) :
    ∑ t : Fin 16, ∑ j : Fin 131072, f (blk t j) = ∑ n : Fin 2097152, f n := by
  rw [← Fintype.sum_prod_type']
  exact Fintype.sum_equiv blkEquiv _ _ (fun _ => rfl)

/-- The indices of a one-axis array are its coordinates. -/
def ix1Equiv (n : ℕ) : Fin n ≃ (⟨1, ![n]⟩ : Shape).Idx where
  toFun := ix1
  invFun j := j 0
  left_inv _ := rfl
  right_inv j := (eq_ix1 j).symm

/-- A sum over the indices of a one-axis array is the sum over its coordinates. -/
theorem sum_idx1 {M : Type*} [AddCommMonoid M] {n : ℕ} (f : (⟨1, ![n]⟩ : Shape).Idx → M) :
    ∑ j, f j = ∑ a : Fin n, f (ix1 a) :=
  (Fintype.sum_equiv (ix1Equiv n) _ _ (fun _ => rfl)).symm

/-- A one-axis array of extent `n` has `n` indices. -/
theorem card_idx1 (n : ℕ) : (Finset.univ : Finset (⟨1, ![n]⟩ : Shape).Idx).card = n := by
  rw [Finset.card_univ, Fintype.card_congr (ix1Equiv n).symm, Fintype.card_fin]

/-! ## One sample -/

/-- One sample's contribution: background probability `x`, cluster probability `p`, weight `w`, target `tg`. -/
def per (x p w : EReal) (tg : BitVec 32) : EReal :=
  Scalar.select (IntOp.cmpi .ne tg 4294967295#32)
    (-w * Ideal.log (max (Scalar.select (IntOp.cmpi .eq tg 0#32) x p) (Ideal.ofBits .f32 0x2B8CBCCC#32)))
    (Ideal.ofBits .f32 0x00000000#32)

/-- The same contribution written with `0 - w` for `-w`: on the extended reals `0 - w = -w`. -/
theorem per_of_zero_sub (x p w : EReal) (tg : BitVec 32) :
    Scalar.select (IntOp.cmpi .ne tg 4294967295#32)
      ((Ideal.ofBits .f32 0x00000000#32 - w)
        * Ideal.log (max (Scalar.select (IntOp.cmpi .eq tg 0#32) x p) (Ideal.ofBits .f32 0x2B8CBCCC#32)))
      (Ideal.ofBits .f32 0x00000000#32) = per x p w tg := by
  unfold per
  rw [Ideal.ofBits_zero_f32, zero_sub]

/-- Whether the sample counts, as the 32-bit word 0 or 1. -/
def validWord (tg : BitVec 32) : BitVec 32 := (IntOp.cmpi .ne tg 4294967295#32).setWidth 32

/-- Whether the sample counts, as the real number 0 or 1. -/
def cntv (tg : BitVec 32) : EReal := (((validWord tg).toInt : ℝ) : EReal)

/-- The loss of whole arrays of 2097152 samples. -/
def loss (x0 pfg w : (⟨1, ![2097152]⟩ : Shape).Idx → EReal) (tg : (⟨1, ![2097152]⟩ : Shape).Idx → BitVec 32) :
    (⟨0, ![]⟩ : Shape).Idx → EReal :=
  fun _ => Ideal.div (∑ n : Fin 2097152, per (x0 (ix1 n)) (pfg (ix1 n)) (w (ix1 n)) (tg (ix1 n)))
    (max (∑ n : Fin 2097152, cntv (tg (ix1 n))) (Ideal.ofBits .f32 0x3F800000#32))

/-! ## Counting with 32-bit words -/

theorem validWord_toNat_le (tg : BitVec 32) : (validWord tg).toNat ≤ 1 := by
  unfold validWord
  rw [BitVec.toNat_setWidth]
  have h : (IntOp.cmpi .ne tg 4294967295#32).toNat < 2 := (IntOp.cmpi .ne tg 4294967295#32).isLt
  have := Nat.mod_le (IntOp.cmpi .ne tg 4294967295#32).toNat (2 ^ 32)
  omega

/-- The real-number coercion into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- Fewer than 2^32 words, each 0 or 1, added in 32 bits: the total is their number of ones, unwrapped. -/
theorem toNat_fold_addi {ι : Type*} (S : Finset ι) (c : ι → BitVec 32) (hc : ∀ i, (c i).toNat ≤ 1)
    (hS : S.card < 2147483648) :
    (S.fold IntOp.addi 0#32 c).toNat = ∑ i ∈ S, (c i).toNat := by
  induction S using Finset.cons_induction with
  | empty => simp
  | cons a S ha ih =>
    rw [Finset.card_cons] at hS
    have ih' := ih (by omega)
    have hle : ∑ i ∈ S, (c i).toNat ≤ S.card := by
      calc ∑ i ∈ S, (c i).toNat ≤ ∑ _i ∈ S, 1 := Finset.sum_le_sum (fun i _ => hc i)
        _ = S.card := by simp
    rw [Finset.fold_cons, Finset.sum_cons]
    show (c a + S.fold IntOp.addi 0#32 c).toNat = _
    rw [BitVec.toNat_add, ih']
    have := hc a
    exact Nat.mod_eq_of_lt (by norm_num; omega)

/-- So the signed value of the 32-bit total, as a real, is the sum of the words' signed values. -/
theorem toInt_fold_addi {ι : Type*} (S : Finset ι) (c : ι → BitVec 32) (hc : ∀ i, (c i).toNat ≤ 1)
    (hS : S.card < 2147483648) :
    (((S.fold IntOp.addi 0#32 c).toInt : ℝ) : EReal) = ∑ i ∈ S, (((c i).toInt : ℝ) : EReal) := by
  have hsmall : ∀ b : BitVec 32, b.toNat < 2147483648 → b.toInt = (b.toNat : ℤ) := fun b hb =>
    BitVec.toInt_eq_toNat_of_lt (by norm_num; omega)
  have hle : ∑ i ∈ S, (c i).toNat ≤ S.card := by
    calc ∑ i ∈ S, (c i).toNat ≤ ∑ _i ∈ S, 1 := Finset.sum_le_sum (fun i _ => hc i)
      _ = S.card := by simp
  rw [hsmall _ (by rw [toNat_fold_addi S c hc hS]; omega), toNat_fold_addi S c hc hS, ← coe_sum]
  congr 1
  push_cast
  exact Finset.sum_congr rfl fun i _ => by rw [hsmall _ (by have := hc i; omega)]; push_cast; rfl

end Cert.PclSpec

end
-- ==== Proof.Payload.lean ====
/-
  The body's arithmetic at one grid point, read over the extended reals.

  A block is 131072 consecutive samples. The body forms each sample's contribution pointwise, views the block as a
  1 × 131072 row, sums the row's lanes, and adds the total to the accumulator it read; the count is formed the same
  way from the 0/1 validity words converted to floats. Over the extended reals a lane sum is the plain finite sum of
  the lanes, so the stored value is "what the accumulator held + the sum over the block of the samples' terms".
-/
import proofs.«180624_j70884140253232_2_alg».proof.Proof.Gen.KernelIdeal.Skeleton
import proofs.«180624_j70884140253232_2_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.PclSpec

/-- Every axis of the one-element shape [1] has extent one. -/
theorem unit_axes : ∀ b : Fin S1.rank, S1.size b = 1 := fun b => by fin_cases b; rfl

/-- The lane sum of a block viewed as a 1 × 131072 row: the sum of the block's entries. -/
theorem lane_total (v : FVec Ideal S131072 .f32) (hφ : FKind.Formats .f32)
    (hacc : (0x00000000#32 : BitVec 32) = FKind.add.neutral .f32 hφ) (b : Fin 1) :
    multiReduction (F := Ideal) .add [1] S1 (shapeCast S1x131072 v shapeCasts_S131072_S1x131072)
        0x00000000#32 reduces_S1x131072_S1 hφ hacc (ix1 b)
      = ∑ k : Fin 131072, v (ix1 k) := by
  refine (Ideal.multiReduction_add_total _ _ reduces_S1x131072_S1 unit_axes hφ hacc (ix1 b)).trans ?_
  rw [sum_idx2, Fin.sum_univ_one]
  exact Finset.sum_congr rfl fun k _ => shapeCast_a_1a_apply v shapeCasts_S131072_S1x131072 0 k

/-- Adding a one-lane row's entry to a one-element accumulator: the accumulator's entry plus the row's. -/
theorem acc_add (acc : Vec Ideal S1x1 .f32) (row : FVec Ideal S1 .f32) (j : S1x1.Idx) :
    addf (shapeCast S1x1 acc shapeCasts_S1x1_S1x1)
        (broadcast S1x1 (extractAt ![0, 0] (shapeCast S1x1 row shapeCasts_S1_S1x1) inpos_S1x1_p0_0)) j
      = acc j + row (ix1 0) := by
  have e : (fun a => (⟨(![0, 0] : Fin 2 → Nat) a, inpos_S1x1_p0_0 a⟩ : Fin (S1x1.size a))) = ix2 (0 : Fin 1) (0 : Fin 1) := by
    funext a; match a with | ⟨0, _⟩ => rfl | ⟨1, _⟩ => rfl
  show shapeCast S1x1 acc shapeCasts_S1x1_S1x1 j + shapeCast S1x1 row shapeCasts_S1_S1x1 (fun a => ⟨(![0, 0] : Fin 2 → Nat) a, inpos_S1x1_p0_0 a⟩) = _
  rw [shapeCast_self, e, shapeCast_a_1a_apply]

/-- One sample's term as the body writes it, pointwise over a block, is the sample's contribution. -/
theorem per_at (v3 : Vec Ideal S131072 .f32) (v5 : Vec Ideal S131072 .i32) (v6 v7 : Vec Ideal S131072 .f32) (k : Fin 131072) :
    (select (cmpi .ne v5 (broadcast S131072 4294967295#32))
        (mulf (subf (broadcast S131072 (Scalar.ofBits (F := Ideal) .f32 0x00000000#32)) v6)
          (log (maximumf (select (cmpi .eq v5 (broadcast S131072 0#32)) (shapeCast S131072 v3 shapeCasts_S131072_S131072)
            (shapeCast S131072 v7 shapeCasts_S131072_S131072)) (broadcast S131072 (Scalar.ofBits (F := Ideal) .f32 0x2B8CBCCC#32)))))
        (broadcast S131072 (Scalar.ofBits (F := Ideal) .f32 0x00000000#32)) : FVec Ideal S131072 .f32) (ix1 k)
      = per (v3 (ix1 k)) (v7 (ix1 k)) (v6 (ix1 k)) (v5 (ix1 k)) := by
  rw [shapeCast_self, shapeCast_self]
  exact per_of_zero_sub _ _ _ _

/-- One sample's validity as the body writes it, pointwise over a block, is the sample's 0/1 value. -/
theorem cnt_at (v5 : Vec Ideal S131072 .i32) (k : Fin 131072) :
    (sitofp .f32 (extui 32 (cmpi .ne v5 (broadcast S131072 4294967295#32)) natLt_1_32) : FVec Ideal S131072 .f32) (ix1 k)
      = cntv (v5 (ix1 k)) := rfl

/-- The value stored in the sum accumulator: what it held plus the block's contributions. The four blocks are the
    background probabilities, the targets, the weights and the cluster probabilities of the block's samples. -/
theorem sum_payload (v3 : Vec Ideal S131072 .f32) (v5 : Vec Ideal S131072 .i32) (v6 v7 : Vec Ideal S131072 .f32)
    (v22 : Vec Ideal S1x1 .f32) (j : S1x1.Idx) :
    k0_pay5 (F := Ideal) v3 v5 v6 v7 v22 j
      = v22 j + ∑ k : Fin 131072, per (v3 (ix1 k)) (v7 (ix1 k)) (v6 (ix1 k)) (v5 (ix1 k)) := by
  unfold k0_pay5 k0_pay4
  refine (acc_add v22 _ j).trans (congrArg (v22 j + ·) ?_)
  refine (lane_total _ (.inl rfl) rfl 0).trans ?_
  exact Finset.sum_congr rfl fun k _ => per_at v3 v5 v6 v7 k

/-- The value stored in the count accumulator: what it held plus the number of the block's samples that count. -/
theorem cnt_payload (v5 : Vec Ideal S131072 .i32) (v31 : Vec Ideal S1x1 .f32) (j : S1x1.Idx) :
    k0_pay1 (F := Ideal) (k0_pay6 v31) (k0_pay7 v5) j = v31 j + ∑ k : Fin 131072, cntv (v5 (ix1 k)) := by
  unfold k0_pay1 k0_pay6 k0_pay7 k0_pay4
  refine (acc_add v31 _ j).trans (congrArg (v31 j + ·) ?_)
  refine (lane_total _ (.inl rfl) rfl 0).trans ?_
  exact Finset.sum_congr rfl fun k _ => cnt_at v5 k

/-- The two accumulators start from the real number zero. -/
theorem zero_payload2 (j : S1x1.Idx) : k0_pay2 (F := Ideal) j = 0 := Ideal.ofBits_zero_f32
theorem zero_payload3 (j : S1x1.Idx) : k0_pay3 (F := Ideal) j = 0 := Ideal.ofBits_zero_f32

end Cert.KernelIdeal.Payload

end
-- ==== Proof.Blocks.lean ====
/-
  Blocks numbered by natural numbers.

  The grid's running total after point n is a sum over the points 0, …, n, which is most easily written over a
  range of natural numbers. Here block `t` for a natural number `t` is block `t mod 16`; over the range 0 … 15 that
  is block `t` itself, and the sixteen blocks' sums add up to the sum over all samples.
-/
import proofs.«180624_j70884140253232_2_alg».proof.Proof.Spec

noncomputable section

namespace Cert.PclSpec

open Idealize.ShloMosaic

/-- Sample `k` of block `t mod 16`. -/
def blkN (t : ℕ) (k : Fin 131072) : Fin 2097152 :=
  ⟨(t % 16) * 131072 + k.val, by have := k.isLt; have := Nat.mod_lt t (by norm_num : 16 > 0); omega⟩

theorem blkN_eq (t : Fin 16) (k : Fin 131072) : blkN t.val k = blk t k :=
  Fin.ext (by show (t.val % 16) * 131072 + k.val = t.val * 131072 + k.val; rw [Nat.mod_eq_of_lt t.isLt])

/-- The sixteen blocks' sums, added over the range 0 … 15, are the sum over all samples. -/
theorem sum_range_blkN {M : Type*} [AddCommMonoid M] (f : Fin 2097152 → M) :
    ∑ t ∈ Finset.range 16, ∑ k : Fin 131072, f (blkN t k) = ∑ n, f n := by
  rw [Finset.sum_range]
  simp only [blkN_eq]
  exact sum_blk f

end Cert.PclSpec

end
-- ==== Proof.Chain.lean ====
/-
  The two accumulators after each grid point are running sums over the blocks done so far.

  Grid point t reads block t of each of its four input arrays (samples 131072 t … 131072 t + 131071). After point n
  the sum accumulator holds the sum over t ≤ n of block t's contributions and the count accumulator the sum over
  t ≤ n of block t's counts: the first point starts from zero, each later point adds its block to what the point before
  left. This is an induction on the point, not an enumeration of the grid.
-/
import proofs.«180624_j70884140253232_2_alg».proof.Proof.Pieces
import proofs.«180624_j70884140253232_2_alg».proof.Proof.Payload
import proofs.«180624_j70884140253232_2_alg».proof.Proof.Blocks

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.PclSpec

variable (m : (ℓ : Loc nD τ sig) → Buf (Elt Ideal) ℓ)

/-- Every input window's block index at grid point t is t. -/
theorem idx0 : ∀ t : Fin cfg0.N, win0_0.index t (0 : Fin 1) = t.val :=
  (by decide +kernel : ∀ t : Fin grid0.N, win0_0.index t (0 : Fin 1) = t.val)
theorem idx1 : ∀ t : Fin cfg0.N, win0_1.index t (0 : Fin 1) = t.val :=
  (by decide +kernel : ∀ t : Fin grid0.N, win0_1.index t (0 : Fin 1) = t.val)
theorem idx2 : ∀ t : Fin cfg0.N, win0_2.index t (0 : Fin 1) = t.val :=
  (by decide +kernel : ∀ t : Fin grid0.N, win0_2.index t (0 : Fin 1) = t.val)
theorem idx3 : ∀ t : Fin cfg0.N, win0_3.index t (0 : Fin 1) = t.val :=
  (by decide +kernel : ∀ t : Fin grid0.N, win0_3.index t (0 : Fin 1) = t.val)

/-- Entry k of the block of background probabilities at point t is sample k of block t of the whole array. -/
theorem read0 (c : Dev nD) (t : Fin cfg0.N) (k : Fin 131072) :
    (iblk m c 0 t : Vec Ideal S131072 .f32) (ix1 k) = (V m c main_v1 : S2097152.Idx → EReal) (ix1 (blkN t.val k)) := by
  have hN : t.val < 16 := lt_of_lt_of_eq t.isLt (show cfg0.N = 16 from N_0)
  unfold iblk
  rw [View.read_apply]
  show V m c main_v1 _ = V m c main_v1 _
  congr 1
  funext a
  apply Fin.ext
  match a with
  | ⟨0, _⟩ => show win0_0.index t 0 * 131072 + 1 * k.val = (t.val % 16) * 131072 + k.val; rw [idx0 t]; omega

/-- The same for the targets, -/
theorem read1 (c : Dev nD) (t : Fin cfg0.N) (k : Fin 131072) :
    (iblk m c 1 t : Vec Ideal S131072 .i32) (ix1 k) = (V m c main_arg3 : S2097152.Idx → BitVec 32) (ix1 (blkN t.val k)) := by
  have hN : t.val < 16 := lt_of_lt_of_eq t.isLt (show cfg0.N = 16 from N_0)
  unfold iblk
  rw [View.read_apply]
  show V m c main_arg3 _ = V m c main_arg3 _
  congr 1
  funext a
  apply Fin.ext
  match a with
  | ⟨0, _⟩ => show win0_1.index t 0 * 131072 + 1 * k.val = (t.val % 16) * 131072 + k.val; rw [idx1 t]; omega

/-- the weights, -/
theorem read2 (c : Dev nD) (t : Fin cfg0.N) (k : Fin 131072) :
    (iblk m c 2 t : Vec Ideal S131072 .f32) (ix1 k) = (V m c main_arg1 : S2097152.Idx → EReal) (ix1 (blkN t.val k)) := by
  have hN : t.val < 16 := lt_of_lt_of_eq t.isLt (show cfg0.N = 16 from N_0)
  unfold iblk
  rw [View.read_apply]
  show V m c main_arg1 _ = V m c main_arg1 _
  congr 1
  funext a
  apply Fin.ext
  match a with
  | ⟨0, _⟩ => show win0_2.index t 0 * 131072 + 1 * k.val = (t.val % 16) * 131072 + k.val; rw [idx2 t]; omega

/-- and the cluster probabilities. -/
theorem read3 (c : Dev nD) (t : Fin cfg0.N) (k : Fin 131072) :
    (iblk m c 3 t : Vec Ideal S131072 .f32) (ix1 k) = (V m c main_v8 : S2097152.Idx → EReal) (ix1 (blkN t.val k)) := by
  have hN : t.val < 16 := lt_of_lt_of_eq t.isLt (show cfg0.N = 16 from N_0)
  unfold iblk
  rw [View.read_apply]
  show V m c main_v8 _ = V m c main_v8 _
  congr 1
  funext a
  apply Fin.ext
  match a with
  | ⟨0, _⟩ => show win0_3.index t 0 * 131072 + 1 * k.val = (t.val % 16) * 131072 + k.val; rw [idx3 t]; omega

/-- Block t's sum of contributions, over the arrays as the region finds them. -/
def blockSum (c : Dev nD) (t : ℕ) : EReal :=
  ∑ k : Fin 131072, per ((V m c main_v1 : S2097152.Idx → EReal) (ix1 (blkN t k)))
    ((V m c main_v8 : S2097152.Idx → EReal) (ix1 (blkN t k))) ((V m c main_arg1 : S2097152.Idx → EReal) (ix1 (blkN t k)))
    ((V m c main_arg3 : S2097152.Idx → BitVec 32) (ix1 (blkN t k)))

/-- Block t's count. -/
def blockCnt (c : Dev nD) (t : ℕ) : EReal :=
  ∑ k : Fin 131072, cntv ((V m c main_arg3 : S2097152.Idx → BitVec 32) (ix1 (blkN t k)))

/-- The contributions of the block read at point t are block t's. -/
theorem blockSum_read (c : Dev nD) (t : Fin cfg0.N) :
    ∑ k : Fin 131072, per ((iblk m c 0 t : Vec Ideal S131072 .f32) (ix1 k)) ((iblk m c 3 t : Vec Ideal S131072 .f32) (ix1 k))
      ((iblk m c 2 t : Vec Ideal S131072 .f32) (ix1 k)) ((iblk m c 1 t : Vec Ideal S131072 .i32) (ix1 k))
      = blockSum m c t.val :=
  Finset.sum_congr rfl fun k _ => by rw [read0 m c t k, read1 m c t k, read2 m c t k, read3 m c t k]

theorem blockCnt_read (c : Dev nD) (t : Fin cfg0.N) :
    ∑ k : Fin 131072, cntv ((iblk m c 1 t : Vec Ideal S131072 .i32) (ix1 k)) = blockCnt m c t.val :=
  Finset.sum_congr rfl fun k _ => by rw [read1 m c t k]

/-- After point n the accumulators hold the sums over the blocks 0 … n. -/
theorem outsAt_eq (c : Dev nD) : ∀ (n : ℕ) (h : n < cfg0.N),
    outsAt0 m c n h = ((fun _ => ∑ t ∈ Finset.range (n + 1), blockSum m c t : Vec Ideal S1x1 .f32),
      (fun _ => ∑ t ∈ Finset.range (n + 1), blockCnt m c t : Vec Ideal S1x1 .f32))
  | 0, h => by
    refine (outsAt0_A m c ⟨0, h⟩ rfl).trans (congrArg₂ Prod.mk ?_ ?_)
    · refine (Pieces.sum_first c _ _ _ _ _ _ _ _ _ _ _ _ _ _ (iblk m c 0 ⟨0, h⟩) (iblk m c 1 ⟨0, h⟩) (iblk m c 2 ⟨0, h⟩)
        (iblk m c 3 ⟨0, h⟩)).trans ?_
      funext j
      refine (Payload.sum_payload (iblk m c 0 ⟨0, h⟩) (iblk m c 1 ⟨0, h⟩) (iblk m c 2 ⟨0, h⟩) (iblk m c 3 ⟨0, h⟩) _ j).trans ?_
      rw [Payload.zero_payload2, zero_add, Finset.sum_range_one]
      exact blockSum_read m c ⟨0, h⟩
    · refine (Pieces.cnt_first c _ _ _ _ _ _ _ _ _ _ _ _ _ _ (iblk m c 0 ⟨0, h⟩) (iblk m c 1 ⟨0, h⟩) (iblk m c 2 ⟨0, h⟩)
        (iblk m c 3 ⟨0, h⟩)).trans ?_
      funext j
      refine (Payload.cnt_payload (iblk m c 1 ⟨0, h⟩) _ j).trans ?_
      rw [Payload.zero_payload3, zero_add, Finset.sum_range_one]
      exact blockCnt_read m c ⟨0, h⟩
  | n + 1, h => by
    have hN : cfg0.N = 16 := N_0
    have hB : ¬(⟨n + 1, h⟩ : Fin cfg0.N).val % 16 = 0 := by dsimp only; omega
    have ih := outsAt_eq c n (Nat.lt_of_succ_lt h)
    refine (outsAt0_B m c ⟨n + 1, h⟩ hB).trans (congrArg₂ Prod.mk ?_ ?_)
    · refine (Pieces.sum_later c _ _ _ _ _ _ _ _ _ _ _ _ _ _ (iblk m c 0 ⟨n + 1, h⟩) (iblk m c 1 ⟨n + 1, h⟩)
        (iblk m c 2 ⟨n + 1, h⟩) (iblk m c 3 ⟨n + 1, h⟩) _ _).trans ?_
      funext j
      refine (Payload.sum_payload (iblk m c 0 ⟨n + 1, h⟩) (iblk m c 1 ⟨n + 1, h⟩) (iblk m c 2 ⟨n + 1, h⟩)
        (iblk m c 3 ⟨n + 1, h⟩) _ j).trans ?_
      show (outsAt0 m c n _).1 j + _ = _
      rw [ih, Finset.sum_range_succ _ (n + 1)]
      exact congrArg _ (blockSum_read m c ⟨n + 1, h⟩)
    · refine (Pieces.cnt_later c _ _ _ _ _ _ _ _ _ _ _ _ _ _ (iblk m c 0 ⟨n + 1, h⟩) (iblk m c 1 ⟨n + 1, h⟩)
        (iblk m c 2 ⟨n + 1, h⟩) (iblk m c 3 ⟨n + 1, h⟩) _ _).trans ?_
      funext j
      refine (Payload.cnt_payload (iblk m c 1 ⟨n + 1, h⟩) _ j).trans ?_
      show (outsAt0 m c n _).2 j + _ = _
      rw [ih, Finset.sum_range_succ _ (n + 1)]
      exact congrArg _ (blockCnt_read m c ⟨n + 1, h⟩)

end Cert.KernelIdeal.Chain

end
-- ==== Proof.KernelRun.lean ====
/-
  What the kernel's program ends with: the loss of the arrays its region is launched on.

  The two accumulators are written back to their 1 × 1 result arrays once, after the last grid point, and the one
  block is the whole array; so the result arrays end holding the sums over all sixteen blocks, which are the sums
  over all samples. The host lines after the region turn the two 1 × 1 arrays into scalars and divide the sum by
  max(count, 1). The region's four input arrays are: column 0 of the input, reshaped (the host lines before the
  region compute it); the targets; the weights; and the table gathered at the wrapped cluster indices (the host lines
  before the region compute that too).
-/
import proofs.«180624_j70884140253232_2_alg».proof.Proof.Chain
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.PclSpec Cert.KernelIdeal.Chain

variable (m : (ℓ : Loc nD τ sig) → Buf (Elt Ideal) ℓ) (ρ : Dev nD → PrngReg)

/-- The sum of all sixteen blocks' contributions, and of their counts. -/
def total (c : Dev nD) : EReal := ∑ t ∈ Finset.range 16, blockSum m c t
def count (c : Dev nD) : EReal := ∑ t ∈ Finset.range 16, blockCnt m c t

/-- The two result arrays' final contents. -/
abbrev sumArr (c : Dev nD) : Buf (Elt Ideal) ((c : Thread nD τ).loc main_v9_0) := fun _ => total m c
abbrev cntArr (c : Dev nD) : Buf (Elt Ideal) ((c : Thread nD τ).loc main_v9_1) := fun _ => count m c

/-- The one write-back of the sum accumulator, after point 15, writes the total: the block is the whole 1 × 1 array. -/
theorem flushed4 (c : Dev nD) (t : Fin cfg0.N) (hf : (cfg0.win 4).flush t = true) :
    (dats m 0 c).flushed 4 t = ((cfg0.win 4).blk t).view.read (Elt Ideal) (sumArr m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4, outsAt_eq]
  have hz' : (fun a => win0_4.index t0_15 a * main_v9_0.ty.shape.size a) = fun _ => 0 := funext fun a => by fin_cases a <;> decide
  exact (Memref.read_access_unit_zero (Elt Ideal) main_v9_0 hz' (fun a => by rw [congrFun hz' a]; simp) (sumArr m c)).symm

/-- The same for the count accumulator. -/
theorem flushed5 (c : Dev nD) (t : Fin cfg0.N) (hf : (cfg0.win 5).flush t = true) :
    (dats m 0 c).flushed 5 t = ((cfg0.win 5).blk t).view.read (Elt Ideal) (cntArr m c) := by
  have hN : cfg0.N = 16 := N_0
  have h15 : t.val = 15 := by have := (flush0_5 t).mp hf; have := t.isLt; omega
  obtain rfl : t = t0_15 := Fin.ext h15
  show (cfg0.win 5).cut (grid0.coords t0_15) ((dats m 0 c).after 5 t0_15) = _
  rw [after0_5, outsAt_eq]
  have hz' : (fun a => win0_5.index t0_15 a * main_v9_1.ty.shape.size a) = fun _ => 0 := funext fun a => by fin_cases a <;> decide
  exact (Memref.read_access_unit_zero (Elt Ideal) main_v9_1 hz' (fun a => by rw [congrFun hz' a]; simp) (cntArr m c)).symm

/-- So the sum's result array ends holding the total: the last point's block covers its one entry. -/
theorem final4 (c : Dev nD) : (dats m 0 c).arrAt 4 cfg0.N = sumArr m c :=
  (dats m 0 c).arrAt_eq_of_cover 4 (sumArr m c) (flushed4 m c) fun i =>
    ⟨t0_15, (flush0_4 t0_15).mpr rfl, by
      show i ∈ ((View.whole main_v9_0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

/-- And the count's result array the count. -/
theorem final5 (c : Dev nD) : (dats m 0 c).arrAt 5 cfg0.N = cntArr m c :=
  (dats m 0 c).arrAt_eq_of_cover 5 (cntArr m c) (flushed5 m c) fun i =>
    ⟨t0_15, (flush0_5 t0_15).mpr rfl, by
      show i ∈ ((View.whole main_v9_1).slice (win0_5.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 1 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 1 from by decide +kernel]; omega⟩

/-- The host lines after the region: the sum as a scalar divided by the larger of the count as a scalar and one. -/
def tail (s n : S1x1.Idx → EReal) : S_.Idx → EReal :=
  Host.divf (F := Ideal) (shapeCast S_ s shapeCasts_S1x1_S_)
    (maximumf (F := Ideal) (shapeCast S_ n shapeCasts_S1x1_S_) (constant (F := Ideal) S_ .f32 0x3F800000#32))

/-- The tail of two constant 1 × 1 arrays. -/
theorem tail_const (a b : EReal) (i : S_.Idx) :
    tail (fun _ => a) (fun _ => b) i = Ideal.div a (max b (Ideal.ofBits .f32 0x3F800000#32)) := rfl

/-- The program's result. -/
def result (c : Dev nD) : Buf (Elt Ideal) ((c : Thread nD τ).loc main_v13) := tail (sumArr m c) (cntArr m c)

theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have e4 : Pipeline.withArrays (cfgs 0).spec c (V0 m c) (fun w => (dats m 0 c).arrAt w (cfgs 0).N) (Proc.devRef .tc main_v9_0)
      = sumArr m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v9_1)
      = cntArr m c := (Pipeline.withArrays_arr spec0 launch0.win.arr_inj c _ _ 5).trans (final5 m c)
  rw [e4, e5]
  rfl

/-- The run, read: the result at `result`, the five arguments unchanged. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

/-! ## The result is the loss of the arrays the region is launched on -/

/-- The sixteen blocks' sums are the sums over all samples, so the result is the loss. -/
theorem result_eq (c : Dev nD) :
    result m c = loss (V m c main_v1 : S2097152.Idx → EReal) (V m c main_v8 : S2097152.Idx → EReal)
      (V m c main_arg1 : S2097152.Idx → EReal) (V m c main_arg3 : S2097152.Idx → BitVec 32) := by
  have e1 : total m c = ∑ n : Fin 2097152, per ((V m c main_v1 : S2097152.Idx → EReal) (ix1 n))
      ((V m c main_v8 : S2097152.Idx → EReal) (ix1 n)) ((V m c main_arg1 : S2097152.Idx → EReal) (ix1 n))
      ((V m c main_arg3 : S2097152.Idx → BitVec 32) (ix1 n)) :=
    sum_range_blkN (fun n => per ((V m c main_v1 : S2097152.Idx → EReal) (ix1 n))
      ((V m c main_v8 : S2097152.Idx → EReal) (ix1 n)) ((V m c main_arg1 : S2097152.Idx → EReal) (ix1 n))
      ((V m c main_arg3 : S2097152.Idx → BitVec 32) (ix1 n)))
  have e2 : count m c = ∑ n : Fin 2097152, cntv ((V m c main_arg3 : S2097152.Idx → BitVec 32) (ix1 n)) :=
    sum_range_blkN (fun n => cntv ((V m c main_arg3 : S2097152.Idx → BitVec 32) (ix1 n)))
  funext i
  refine (tail_const (total m c) (count m c) i).trans ?_
  rw [e1, e2]
  unfold loss
  rfl

/-- The region's first input is column 0 of the input array, as a one-axis array. -/
theorem V_x0 (c : Dev nD) : (V m c main_v1 : S2097152.Idx → EReal)
    = shapeCast S2097152 (extractStridedSlice S2097152x1 ![0, 0] (m ((c.tc : Thread nD τ).loc main_arg0))
        slices_S2097152x21_S2097152x1_0_0) shapeCasts_S2097152x1_S2097152 := by
  show StableHlo.after hostOps0 (fun b => m (c, b)) (Proc.devRef .tc main_v1) = _
  after_results <;> rfl

/-- Its fourth input is the table gathered at the cluster indices, a negative index wrapped by adding 4096. -/
theorem V_pfg (c : Dev nD) : (V m c main_v8 : S2097152.Idx → EReal)
    = Host.gather gather_S4096_S2097152x1_S2097152_n_0_n_n_0_1_1 (m ((c.tc : Thread nD τ).loc main_arg2))
        (broadcastInDim S2097152x1 ![0] bcast_S2097152_S2097152x1_0
          (select (cmpi .slt (m ((c.tc : Thread nD τ).loc main_arg4)) (broadcastInDim S2097152 ![] bcast_S_S2097152 (constantI S_ 32 0#32)))
            (addi (m ((c.tc : Thread nD τ).loc main_arg4)) (broadcastInDim S2097152 ![] bcast_S_S2097152 (constantI S_ 32 4096#32)))
            (m ((c.tc : Thread nD τ).loc main_arg4)))) := by
  show StableHlo.after hostOps0 (fun b => m (c, b)) (Proc.devRef .tc main_v8) = _
  after_results <;> rfl

end Cert.KernelIdeal.Run

end
-- ==== Proof.RefValue.lean ====
/-
  The reference computes the loss: its sum of contributions and its count, read index by index.

  The reference forms every sample's contribution over whole arrays, sums them from zero, counts the samples whose
  target is not the ignore index by adding 32-bit 0/1 words and converting the total to a float, and divides the sum
  by max(count, 1). The count does not wrap (2097152 words, each 0 or 1), so converting the total is the same as
  summing the converted words. The background probabilities (column 0 of the input) and the cluster probabilities
  (the gather from the table) are left as the reference's own stages: the kernel's host lines compute the same two.
-/
import proofs.«180624_j70884140253232_2_alg».proof.Proof.Gen.ReferenceIdeal.Read
import proofs.«180624_j70884140253232_2_alg».proof.Proof.Spec

noncomputable section

open Idealize.ShloMosaic Idealize.ShloMosaic.ValueIdx

namespace Cert.ReferenceIdeal.RefValue

open Cert.ReferenceIdeal Cert.ReferenceIdeal.Read Cert.PclSpec

/-- One sample's term in the reference is its contribution. -/
theorem per_apply (x0 : (⟨S2097152x21, .f32⟩ : BufTy).Contents (Elt Ideal)) (x1 : (⟨S2097152, .f32⟩ : BufTy).Contents (Elt Ideal))
    (x2 : (⟨S4096, .f32⟩ : BufTy).Contents (Elt Ideal)) (x3 x4 : (⟨S2097152, .i32⟩ : BufTy).Contents (Elt Ideal)) (i : S2097152.Idx) :
    val_main_v19 (F := Ideal) x0 x1 x2 x3 x4 i
      = per (val_main_v12 (F := Ideal) x0 i) (val_main_v10 (F := Ideal) x2 x4 i) (x1 i) (x3 i) := rfl

/-- The reference's count, converted to a float, is the sum of the samples' 0/1 validity values. -/
theorem cnt_apply (x3 : (⟨S2097152, .i32⟩ : BufTy).Contents (Elt Ideal)) (i : S_.Idx) :
    val_main_v22 (F := Ideal) x3 i = ∑ n : Fin 2097152, cntv (x3 (ix1 n)) := by
  rw [val_main_v22_apply]
  show (((val_main_v21 (F := Ideal) x3 i).toInt : ℝ) : EReal) = _
  unfold val_main_v21
  rw [Host.reduce_eq_fold, Finset.filter_true_of_mem (fun j _ => funext fun b => b.elim0)]
  show (((Finset.univ.fold IntOp.addi 0#32 (val_main_v20 (F := Ideal) x3)).toInt : ℝ) : EReal) = _
  rw [toInt_fold_addi Finset.univ (val_main_v20 (F := Ideal) x3) (fun j => validWord_toNat_le (x3 j)) (by rw [card_idx1]; norm_num),
    sum_idx1]
  rfl

/-- The reference's result is the loss of its background probabilities, its gathered cluster probabilities, the
    weights and the targets. -/
theorem result_eq (x0 : (⟨S2097152x21, .f32⟩ : BufTy).Contents (Elt Ideal)) (x1 : (⟨S2097152, .f32⟩ : BufTy).Contents (Elt Ideal))
    (x2 : (⟨S4096, .f32⟩ : BufTy).Contents (Elt Ideal)) (x3 x4 : (⟨S2097152, .i32⟩ : BufTy).Contents (Elt Ideal)) :
    val_main_v25 (F := Ideal) x0 x1 x2 x3 x4
      = loss (val_main_v12 (F := Ideal) x0) (val_main_v10 (F := Ideal) x2 x4) x1 x3 := by
  funext i
  rw [val_main_v25_apply, val_main_v24_apply, val_main_v23_apply, cnt_apply, sum_idx1]
  show Ideal.div (Ideal.ofBits .f32 0x00000000#32 + ∑ n : Fin 2097152, val_main_v19 (F := Ideal) x0 x1 x2 x3 x4 (ix1 n))
      (max (∑ n : Fin 2097152, cntv (x3 (ix1 n))) (Ideal.ofBits .f32 0x3F800000#32)) = _
  rw [Ideal.ofBits_zero_f32, zero_add]
  rfl

end Cert.ReferenceIdeal.RefValue

end
-- ==== Proof.lean ====
/-
  The clustered negative-log-likelihood loss: the blocked kernel and the whole-array reference agree over the
  extended reals.

  Both programs compute, for 2097152 samples,  (Σₙ contributionₙ) / max(Σₙ validₙ, 1),  where
  contributionₙ = -wₙ · log(max(pₙ, ε)) if the target is not the ignore index -1 and 0 otherwise, pₙ is column 0
  of the input when the target is 0 and the cluster table's entry at the sample's (wrapped) cluster index otherwise,
  and validₙ is 1 when the target is not -1.

  The kernel walks sixteen blocks of 131072 samples, keeping the running sum and the running count in two
  one-element accumulators that it zeroes at the first block and writes back after the last; it writes `0 - w` for
  `-w` and counts by summing 0/1 floats. The reference sums whole arrays, negates `w`, and counts by summing 0/1
  32-bit integers before converting the total. Over the extended reals the two agree because
    • addition is commutative and associative, so the sum over all samples is the sum of the sixteen blocks' sums
      (no finiteness of the inputs is needed: nothing is distributed or cancelled);
    • `0 - w = -w`;
    • 2097152 words that are each 0 or 1 add up without wrapping in 32 bits, so converting the integer total is
      summing the converted words.
  Column 0 of the input and the gathered table entries are computed by the same host operations in both programs,
  so they are never opened. The ideal pass rewrote nothing in the kernel, so the idealization claim is trivial; the
  kernel's two frames are the generated ones and the reference's frame is its generated run with the result dropped.
-/
import proofs.«180624_j70884140253232_2_alg».proof.Defs
import proofs.«180624_j70884140253232_2_alg».proof.Proof.Gen.Kernel
import proofs.«180624_j70884140253232_2_alg».proof.Proof.Gen.Kernel.Frame
import proofs.«180624_j70884140253232_2_alg».proof.Proof.Gen.KernelIdeal
import proofs.«180624_j70884140253232_2_alg».proof.Proof.Gen.KernelIdeal.Frame
import proofs.«180624_j70884140253232_2_alg».proof.Proof.Gen.ReferenceIdeal
import proofs.«180624_j70884140253232_2_alg».proof.Proof.Gen.ReferenceIdeal.Run
import proofs.«180624_j70884140253232_2_alg».proof.Proof.Gen.ReferenceIdeal.Read
import proofs.«180624_j70884140253232_2_alg».proof.Proof.Gen.Pre_finite_inputs
import proofs.«180624_j70884140253232_2_alg».proof.Proof.KernelRun
import proofs.«180624_j70884140253232_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's program ends with the loss of (column 0 of the input, the gathered table
    entries, the weights, the targets) and so does the reference: the two host prefixes are the same operations. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))).trans ?_
  show _ = Cert.KernelIdeal.Run.result m c
  rw [Cert.ReferenceIdeal.RefValue.result_eq, (hagree c).1, (hagree c).2.1, (hagree c).2.2.1, (hagree c).2.2.2.1,
    (hagree c).2.2.2.2, Cert.KernelIdeal.Run.result_eq, Cert.KernelIdeal.Run.V_x0, Cert.KernelIdeal.Run.V_pfg,
    Cert.KernelIdeal.Gen.V_main_arg1, Cert.KernelIdeal.Gen.V_main_arg3]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
